-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S2x1600000 32) (main_arg2 : FVec F S128x128 .f32) (main_arg3 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S5000x128 : Shape := ⟨2, ![5000, 128]⟩
abbrev S1700000x128 : Shape := ⟨2, ![1700000, 128]⟩
abbrev S1x128 : Shape := ⟨2, ![1, 128]⟩

abbrev nBuf : Space → Nat
  | .hbm => 43
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x128, .f32⟩
  | .hbm, ⟨27, _⟩ => ⟨S100000x128, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000x128, .f32⟩
  | .hbm, ⟨37, _⟩ => ⟨S_, .f32⟩
  | .hbm, ⟨38, _⟩ => ⟨S100000x128, .f32⟩
  | .hbm, ⟨39, _⟩ => ⟨S1700000x1, .i32⟩
  | .hbm, ⟨40, _⟩ => ⟨S100000x128, .f32⟩
  | .hbm, ⟨41, _⟩ => ⟨S1x128, .f32⟩
  | .hbm, ⟨42, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S5000x128_S5000x128 : S5000x128.ShapeCasts S5000x128
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 67
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S100000x128, .f32⟩
  | .hbm, ⟨5, _⟩ => ⟨S100000, .i32⟩
  | .hbm, ⟨6, _⟩ => ⟨S1x1600000, .i32⟩
  | .hbm, ⟨7, _⟩ => ⟨S1600000, .i32⟩
  | .hbm, ⟨8, _⟩ => ⟨S1700000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S_, .f32⟩
  | .hbm, ⟨13, _⟩ => ⟨S1700000, .f32⟩
  | .hbm, ⟨14, _⟩ => ⟨S_, .f32⟩
  | .hbm, ⟨15, _⟩ => ⟨S100000, .f32⟩
  | .hbm, ⟨16, _⟩ => ⟨S1700000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S1700000, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x128, .f32⟩
  | .hbm, ⟨54, _⟩ => ⟨S1700000x1, .f32⟩
  | .hbm, ⟨55, _⟩ => ⟨S1700000x128, .f32⟩
  | .hbm, ⟨56, _⟩ => ⟨S1700000x128, .f32⟩
  | .hbm, ⟨57, _⟩ => ⟨S_, .f32⟩
  | .hbm, ⟨58, _⟩ => ⟨S100000x128, .f32⟩
  | .hbm, ⟨59, _⟩ => ⟨S1700000x1, .i32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call1_cst : Ref sig .tc := ⟨.hbm, 64, rfl⟩
abbrev main_call1_v0 : Ref sig .tc := ⟨.hbm, 65, rfl⟩
abbrev main_v47 : Ref sig .tc := ⟨.hbm, 66, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KernelRun.lean ====
/-
  The idealized kernel's run with its result named.

  @main is six segments: three stretches of host operations, the first pallas_call, a fourth stretch, the second
  pallas_call. Every weakly fair execution ends with every unscoped buffer of a core at the contents the last segment
  boundary assigns it; read at the four arguments that is the frame, and read at the result buffer it names the result:
  the second pallas_call's output array after its last write-back, the arguments as launched.
-/
import proofs.«117731_j1125281432194_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the contents the last
    segment boundary gives it and the four arguments as launched. -/
theorem run_out : θ_run defs (onTc (τ := τ) (main (F := F))) ⟨m, fun _ => 0, ρ⟩ (fun r => ∀ c : Dev nD,
      r.2.mem ((c.tc : Thread nD τ).loc main_v29) = W6 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v29 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩)

end Cert.KernelIdeal.Run

end
-- ==== Proof.KernelHost.lean ====
/-
  What the host operations around the two pallas_calls compute, as terms of the four arguments.

  Before the first call the host builds, from the edge list `ei : [2, 1600000]`, the two columns of edge ends with one
  self loop per node appended (`rowOf`, `colOf` : [1700000]), the in-degree of every node as a scatter of ones at the
  destinations, and the normaliser `dinv[n] = if deg[n] > 0 then deg[n]^(-1/2) else 0`, broadcast along the feature
  axis (`dinvWide` : [100000, 128]). Between the calls it normalises the sources (a negative number gets 100000
  added), gathers those rows of the first call's result and scatter-adds them at the destinations; it also reshapes
  the bias to a row. This module reads each buffer the calls and the result depend on back to these terms: every
  host stretch only rewrites its own result buffers, and a call only its output array.
-/
import proofs.«117731_j1125281432194_1_alg».proof.Proof.Gen.KernelIdeal.Frame
import Idealize.ShloMosaic.Lib.StableHlo.Run

set_option maxRecDepth 16384

noncomputable section

namespace Cert.KernelIdeal.HostV

open Cert.KernelIdeal Cert.KernelIdeal.Gen Idealize.ShloMosaic Idealize.ShloMosaic.TcCoe Idealize.SL.Sem Idealize.ShloMosaic.StableHlo
open Idealize.ShloMosaic.Pipeline (Dat)

variable {F : FTy → Type} [FloatOps F]

/-! ## The terms -/

/-- The source of every edge: row 0 of the edge list, then the self loops `0, 1, …, 99999`. -/
def rowOf (ei : (⟨S2x1600000, .i32⟩ : BufTy).Contents (Elt F)) : (⟨S1700000, .i32⟩ : BufTy).Contents (Elt F) :=
  concatenate S1700000 0 [⟨S1600000, shapeCast _ (extractStridedSlice S1x1600000 ![0, 0] ei slices_S2x1600000_S1x1600000_0_0) shapeCasts_S1x1600000_S1600000⟩, ⟨S100000, iotaInDim S100000 32 0⟩] concatenates_S1600000_S100000_S1700000_d0

/-- The destination of every edge: row 1 of the edge list, then the self loops. -/
def colOf (ei : (⟨S2x1600000, .i32⟩ : BufTy).Contents (Elt F)) : (⟨S1700000, .i32⟩ : BufTy).Contents (Elt F) :=
  concatenate S1700000 0 [⟨S1600000, shapeCast _ (extractStridedSlice S1x1600000 ![1, 0] ei slices_S2x1600000_S1x1600000_1_0) shapeCasts_S1x1600000_S1600000⟩, ⟨S100000, iotaInDim S100000 32 0⟩] concatenates_S1600000_S100000_S1700000_d0

/-- The destinations as a column of row numbers. -/
def colColumn (ei : (⟨S2x1600000, .i32⟩ : BufTy).Contents (Elt F)) : (⟨S1700000x1, .i32⟩ : BufTy).Contents (Elt F) :=
  broadcastInDim S1700000x1 ![0] bcast_S1700000_S1700000x1_0 (colOf (F := F) ei)

/-- The in-degree of every node: ones scattered at the destinations onto zeros. -/
def degOf (ei : (⟨S2x1600000, .i32⟩ : BufTy).Contents (Elt F)) : (⟨S100000, .f32⟩ : BufTy).Contents (Elt F) :=
  Host.scatterAdd (F := F) scatter_S100000_S1700000x1_S1700000_n_0_0_1
    (broadcastInDim S100000 ![] bcast_S_S100000 (constant S_ .f32 0x00000000#32))
    (colColumn (F := F) ei)
    (broadcastInDim S1700000 ![] bcast_S_S1700000 (constant S_ .f32 0x3F800000#32))

/-- The normaliser: the inverse square root of a positive degree, zero otherwise. -/
def dinvOf (ei : (⟨S2x1600000, .i32⟩ : BufTy).Contents (Elt F)) : (⟨S100000, .f32⟩ : BufTy).Contents (Elt F) :=
  select (cmpf .ogt (degOf (F := F) ei) (broadcastInDim S100000 ![] bcast_S_S100000 (constant S_ .f32 0x00000000#32)))
    (Host.rsqrt (degOf (F := F) ei))
    (broadcastInDim S100000 ![] bcast_S_S100000 (id (constant S_ .f32 0x00000000#32)))

/-- The normaliser repeated along the feature axis. -/
def dinvWide (ei : (⟨S2x1600000, .i32⟩ : BufTy).Contents (Elt F)) : (⟨S100000x128, .f32⟩ : BufTy).Contents (Elt F) :=
  broadcastInDim S100000x128 ![0, 1] bcast_S100000x1_S100000x128_0_1 (broadcastInDim S100000x1 ![0] bcast_S100000_S100000x1_0 (dinvOf (F := F) ei))

/-- The sources with a negative number wrapped once, as a column of row numbers. -/
def rowColumn (ei : (⟨S2x1600000, .i32⟩ : BufTy).Contents (Elt F)) : (⟨S1700000x1, .i32⟩ : BufTy).Contents (Elt F) :=
  broadcastInDim S1700000x1 ![0] bcast_S1700000_S1700000x1_0
    (select (cmpi .slt (rowOf (F := F) ei) (broadcastInDim S1700000 ![] bcast_S_S1700000 (constantI S_ 32 0#32)))
      (addi (rowOf (F := F) ei) (broadcastInDim S1700000 ![] bcast_S_S1700000 (constantI S_ 32 100000#32)))
      (rowOf (F := F) ei))

/-- The aggregate: the rows of `y` at the sources, scatter-added at the destinations onto zeros. -/
def aggOf (ei : (⟨S2x1600000, .i32⟩ : BufTy).Contents (Elt F)) (y : (⟨S100000x128, .f32⟩ : BufTy).Contents (Elt F)) :
    (⟨S100000x128, .f32⟩ : BufTy).Contents (Elt F) :=
  Host.scatterAdd (F := F) scatter_S100000x128_S1700000x1_S1700000x128_1_0_0_1
    (broadcastInDim S100000x128 ![] bcast_S_S100000x128 (constant S_ .f32 0x00000000#32))
    (colColumn (F := F) ei)
    (Host.gather gather_S100000x128_S1700000x1_S1700000x128_1_0_n_n_0_1_1128 y (rowColumn (F := F) ei))

/-- The bias as a row. -/
def biasRow (b : (⟨S128, .f32⟩ : BufTy).Contents (Elt F)) : (⟨S1x128, .f32⟩ : BufTy).Contents (Elt F) :=
  shapeCast _ b shapeCasts_S128_S1x128

/-! ## The buffers at the first call's entry -/

variable (m : (ℓ : Loc nD τ sig) → Buf (Elt F) ℓ) (ρ : Dev nD → PrngReg)

theorem W3_arg0 (c : Dev nD) : W3 m ρ c (Proc.devRef .tc main_arg0) = m ((c : Thread nD τ).loc main_arg0) := by
  dsimp only [W3, W2, W1, hostOps0, hostOps0_1, hostOps0_2]
  after_results_simp

theorem W3_arg2 (c : Dev nD) : W3 m ρ c (Proc.devRef .tc main_arg2) = m ((c : Thread nD τ).loc main_arg2) := by
  dsimp only [W3, W2, W1, hostOps0, hostOps0_1, hostOps0_2]
  after_results_simp

theorem W3_arg3 (c : Dev nD) : W3 m ρ c (Proc.devRef .tc main_arg3) = m ((c : Thread nD τ).loc main_arg3) := by
  dsimp only [W3, W2, W1, hostOps0, hostOps0_1, hostOps0_2]
  after_results_simp

theorem W3_v3 (c : Dev nD) : W3 m ρ c (Proc.devRef .tc main_v3) = rowOf (F := F) (m ((c : Thread nD τ).loc main_arg1)) := by
  dsimp only [W3, W2, W1, hostOps0, hostOps0_1, hostOps0_2]
  after_results_simp
  rfl

theorem W3_v6 (c : Dev nD) : W3 m ρ c (Proc.devRef .tc main_v6) = colOf (F := F) (m ((c : Thread nD τ).loc main_arg1)) := by
  dsimp only [W3, W2, W1, hostOps0, hostOps0_1, hostOps0_2]
  after_results_simp
  rfl

theorem W3_v16 (c : Dev nD) : W3 m ρ c (Proc.devRef .tc main_v16) = dinvWide (F := F) (m ((c : Thread nD τ).loc main_arg1)) := by
  dsimp only [W3, W2, W1, hostOps0, hostOps0_1, hostOps0_2]
  after_results_simp
  rfl

/-! ## The buffers at the first call's exit: only its output array has changed -/

theorem W4_arg3 (c : Dev nD) : W4 m ρ c (Proc.devRef .tc main_arg3) = m ((c : Thread nD τ).loc main_arg3) :=
  (W4_of_ne m ρ c main_arg3 (by decide)).trans (W3_arg3 m ρ c)

theorem W4_v3 (c : Dev nD) : W4 m ρ c (Proc.devRef .tc main_v3) = rowOf (F := F) (m ((c : Thread nD τ).loc main_arg1)) :=
  (W4_of_ne m ρ c main_v3 (by decide)).trans (W3_v3 m ρ c)

theorem W4_v6 (c : Dev nD) : W4 m ρ c (Proc.devRef .tc main_v6) = colOf (F := F) (m ((c : Thread nD τ).loc main_arg1)) :=
  (W4_of_ne m ρ c main_v6 (by decide)).trans (W3_v6 m ρ c)

/-- The normaliser is an input window of the first call: its array is as entered. -/
theorem W4_v16 (c : Dev nD) : W4 m ρ c (Proc.devRef .tc main_v16) = dinvWide (F := F) (m ((c : Thread nD τ).loc main_arg1)) :=
  (W4_arr m ρ c 2).trans ((((dat0 (V3 m ρ) c).arrAt_in 2 rfl _).trans (A_eq0 (V3 m ρ) c 2)).trans (W3_v16 m ρ c))

/-- The first call's output array. -/
theorem W4_v17 (c : Dev nD) : W4 m ρ c (Proc.devRef .tc main_v17) = (dat0 (V3 m ρ) c).arrAt 3 cfg0.N :=
  W4_arr m ρ c 3

/-! ## The buffers at the second call's entry -/

theorem W5_v16 (c : Dev nD) : W5 m ρ c (Proc.devRef .tc main_v16) = dinvWide (F := F) (m ((c : Thread nD τ).loc main_arg1)) := by
  refine Eq.trans ?_ (W4_v16 m ρ c)
  dsimp only [W5, hostOps1]
  after_results_simp

theorem W5_v28 (c : Dev nD) : W5 m ρ c (Proc.devRef .tc main_v28) = biasRow (F := F) (m ((c : Thread nD τ).loc main_arg3)) := by
  rw [← W4_arg3 m ρ c]
  dsimp only [W5, hostOps1]
  after_results_simp
  rfl

theorem W5_v27 (c : Dev nD) : W5 m ρ c (Proc.devRef .tc main_v27)
    = aggOf (F := F) (m ((c : Thread nD τ).loc main_arg1)) ((dat0 (V3 m ρ) c).arrAt 3 cfg0.N) := by
  rw [← W4_v17 m ρ c]
  unfold aggOf colColumn rowColumn
  rw [← W4_v3 m ρ c, ← W4_v6 m ρ c]
  dsimp only [W5, hostOps1]
  after_results_simp

end Cert.KernelIdeal.HostV

end
-- ==== Proof.KernelScale.lean ====
/-
  The first pallas_call (the scaling kernel) as ONE function of the arrays it finds, at the extended reals.

  Its grid has 20 points; point `t` stages rows `5000·t … 5000·t + 4999` of the features `x` and of the broadcast
  normaliser `d` (both `[100000, 128]`), the whole weight matrix `w : [128, 128]`, and writes back the same rows of
  the result. The body multiplies the staged rows of `x` by `w` (into a zero accumulator; the two narrowings to
  bf16 are the identity on extended reals) and scales the product entry by entry by `d`. So whatever the entry
  contents, the output array ends at
      out[n, c] = (Σ_k x[n, k] · w[k, c]) · d[n, c]
  for every `(n, c)`: each point writes its own rows of this function, and the 20 blocks cover the array.
-/
import proofs.«117731_j1125281432194_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Scale

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Entry `(n, k)` of the features, `n` the row of the output entry `i`. -/
abbrev lhsIx (i : S100000x128.Idx) (k : Fin 128) : S100000x128.Idx := fun a => match a with
  | ⟨0, _⟩ => ⟨(i 0).val, (i 0).isLt⟩
  | ⟨1, _⟩ => ⟨k.val, k.isLt⟩

/-- Entry `(k, c)` of the weights, `c` the column of the output entry `i`. -/
abbrev rhsIx (i : S100000x128.Idx) (k : Fin 128) : S128x128.Idx := fun a => match a with
  | ⟨0, _⟩ => ⟨k.val, k.isLt⟩
  | ⟨1, _⟩ => ⟨(i 1).val, (i 1).isLt⟩

/-- `(Σ_k x[n, k] · w[k, c]) · d[n, c]`, entry by entry. -/
def scaled (x : S100000x128.Idx → EReal) (w : S128x128.Idx → EReal) (d : S100000x128.Idx → EReal) : S100000x128.Idx → EReal :=
  fun i => (∑ k : Fin 128, x (lhsIx i k) * w (rhsIx i k)) * d i

/-! ## The body's arithmetic at one entry of the block -/

local notation "dotB" => dot_S5000x128_S128x128_S5000x128_1_0_0_1_n_n

/-- The same two index functions inside a block. -/
abbrev blkL (j : S5000x128.Idx) (k : Fin 128) : S5000x128.Idx := fun a => match a with
  | ⟨0, _⟩ => ⟨(j 0).val, (j 0).isLt⟩
  | ⟨1, _⟩ => ⟨k.val, k.isLt⟩
abbrev blkR (j : S5000x128.Idx) (k : Fin 128) : S128x128.Idx := fun a => match a with
  | ⟨0, _⟩ => ⟨k.val, k.isLt⟩
  | ⟨1, _⟩ => ⟨(j 1).val, (j 1).isLt⟩

theorem lhs_0 (j : S5000x128.Idx) (q : (dotB).contr.Idx) : ((dotB).lhsIdx j q 0).val = (j 0).val := by
  unfold DotDims.lhsIdx
  rw [dif_neg (show ¬(0 : Fin S5000x128.rank) ∈ (dotB).lhsBatch by decide), dif_pos (show (0 : Fin S5000x128.rank) ∈ (dotB).lhsNonContracting by decide)]
  rfl
theorem lhs_1 (j : S5000x128.Idx) (q : (dotB).contr.Idx) : ((dotB).lhsIdx j q 1).val = (q ⟨0, by decide⟩).val :=
  (dotB).lhsIdx_val_of_single rfl j q
theorem rhs_0 (j : S5000x128.Idx) (q : (dotB).contr.Idx) : ((dotB).rhsIdx j q 0).val = (q ⟨0, by decide⟩).val :=
  (dotB).rhsIdx_val_of_single rfl j q
theorem rhs_1 (j : S5000x128.Idx) (q : (dotB).contr.Idx) : ((dotB).rhsIdx j q 1).val = (j 1).val := by
  unfold DotDims.rhsIdx
  rw [dif_neg (show ¬(1 : Fin S128x128.rank) ∈ (dotB).rhsBatch by decide), dif_pos (show (1 : Fin S128x128.rank) ∈ (dotB).rhsNonContracting by decide)]
  rfl

/-- The block's product with the weights, into the zero accumulator, is the plain sum over the contracted axis. -/
theorem matmul_at (l : FVec Ideal S5000x128 .bf16) (r : FVec Ideal S128x128 .bf16) (j : S5000x128.Idx) :
    matmul (F := Ideal) dotB none l r (constant S5000x128 .f32 0x00000000#32) j = ∑ k : Fin 128, l (blkL j k) * r (blkR j k) := by
  show FloatOps.matmul dotB none l r (constant S5000x128 .f32 0x00000000#32) j = _
  rw [Ideal.matmul_constant_zero_apply, ← Equiv.sum_comp (contrEquiv1 dotB 128 rfl rfl).symm]
  refine Finset.sum_congr rfl fun k _ => ?_
  have hk := contrEquiv1_symm_val dotB 128 rfl rfl k
  have el : (dotB).lhsIdx j ((contrEquiv1 dotB 128 rfl rfl).symm k) = blkL j k := funext fun a => Fin.ext (by
    match a with
    | ⟨0, _⟩ => exact lhs_0 _ _
    | ⟨1, _⟩ => exact (lhs_1 _ _).trans hk)
  have er : (dotB).rhsIdx j ((contrEquiv1 dotB 128 rfl rfl).symm k) = blkR j k := funext fun a => Fin.ext (by
    match a with
    | ⟨0, _⟩ => exact (rhs_0 _ _).trans hk
    | ⟨1, _⟩ => exact rhs_1 _ _)
  rw [el, er]

/-- The payload at one entry: the two narrowings and the cast to the same shape are the identity. -/
theorem pay_apply (x0 : Vec Ideal S5000x128 .f32) (x1 : Vec Ideal S128x128 .f32) (x2 : Vec Ideal S5000x128 .f32) (j : S5000x128.Idx) :
    k0_pay1 (F := Ideal) x0 x1 x2 j = (∑ k : Fin 128, x0 (blkL j k) * x1 (blkR j k)) * x2 j := by
  unfold k0_pay1
  rw [shapeCast_self]
  show matmul (F := Ideal) dotB none (truncf .bf16 x0 bitsLt_bf16_f32) (truncf .bf16 x1 bitsLt_bf16_f32) (constant S5000x128 .f32 0x00000000#32) j * x2 j = _
  rw [matmul_at]
  rfl

/-- The payload as a whole block. -/
theorem pay_eq (x0 : Vec Ideal S5000x128 .f32) (x1 : Vec Ideal S128x128 .f32) (x2 : Vec Ideal S5000x128 .f32) :
    k0_pay1 (F := Ideal) x0 x1 x2 = fun j => (∑ k : Fin 128, x0 (blkL j k) * x1 (blkR j k)) * x2 j :=
  funext fun j => pay_apply x0 x1 x2 j

/-! ## From blocks to the array -/

/-- The printed index maps, decided over the 20 points: the two row-blocked inputs and the output sit at block row
    `t`, block column 0; the weights are always the one whole block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point `t` writes back is block `t` of `scaled` of the arrays the call finds. -/
theorem flushed_eq (c : Dev nD) (t : Fin cfg0.N) :
    (dat0 V c).flushed 3 t = ((cfg0.win 3).blk t).view.read (Elt Ideal) (scaled (V c main_arg0) (V c main_arg2) (V c main_v16)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz]
  rw [pay_eq]
  obtain ⟨e0, e1, e2, e3, e4, e5, e6, e7⟩ := idx_facts t
  funext j
  have hj0 : (j 0).val < 5000 := (j 0).isLt
  have hj1 : (j 1).val < 128 := (j 1).isLt
  have h0 : ∀ k : Fin 128, ((cfg0.win 0).blk t).view.emb (blkL j k) = lhsIx (((cfg0.win 3).blk t).view.emb j) k := by
    intro k
    funext a; apply Fin.ext
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * k.val = k.val; omega
  have h1 : ∀ k : Fin 128, ((cfg0.win 1).blk t).view.emb (blkR j k) = rhsIx (((cfg0.win 3).blk t).view.emb j) k := by
    intro k
    funext a; apply Fin.ext
    match a with
    | ⟨0, _⟩ => show win0_1.index t (0 : Fin 2) * 128 + 1 * k.val = k.val; omega
    | ⟨1, _⟩ => show win0_1.index t (1 : Fin 2) * 128 + 1 * (j 1).val = win0_3.index t (1 : Fin 2) * 128 + 1 * (j 1).val; omega
  have h2 : ((cfg0.win 2).blk t).view.emb j = ((cfg0.win 3).blk t).view.emb j := by
    funext a; apply Fin.ext
    match a with
    | ⟨0, _⟩ => show win0_2.index t (0 : Fin 2) * 5000 + 1 * (j 0).val = win0_3.index t (0 : Fin 2) * 5000 + 1 * (j 0).val; omega
    | ⟨1, _⟩ => show win0_2.index t (1 : Fin 2) * 128 + 1 * (j 1).val = win0_3.index t (1 : Fin 2) * 128 + 1 * (j 1).val; omega
  have key : ∀ (X : S100000x128.Idx → EReal) (Wt : S128x128.Idx → EReal) (Dn : S100000x128.Idx → EReal),
      (∑ k : Fin 128, X (((cfg0.win 0).blk t).view.emb (blkL j k)) * Wt (((cfg0.win 1).blk t).view.emb (blkR j k)))
        * Dn (((cfg0.win 2).blk t).view.emb j)
      = scaled X Wt Dn (((cfg0.win 3).blk t).view.emb j) := by
    intro X Wt Dn
    rw [h2]
    unfold scaled
    exact congrArg (· * _) (Finset.sum_congr rfl fun k _ => by rw [h0 k, h1 k])
  exact key (V c main_arg0) (V c main_arg2) (V c main_v16)

/-- An index of the array is in point `t`'s block iff each coordinate is in the block's range on its axis. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v17).slice (win0_3.rect t)).set ↔ _
  rw [View.set_slice_whole, Rect.mem_set_unit]
  exact Iff.rfl

/-- Row `n` is in the block of point `n / 5000`: the 20 blocks cover the array. -/
theorem cover (i : S100000x128.Idx) : ∃ t : Fin cfg0.N, (cfg0.win 3).flush t = true ∧ i ∈ ((cfg0.win 3).blk t).view.set := by
  have hi0 : (i 0).val < 100000 := idx2_lt0 i
  have hi1 : (i 1).val < 128 := idx2_lt1 i
  have hN : (i 0).val / 5000 < cfg0.N := by
    show (i 0).val / 5000 < grid0.N
    rw [N_0]; omega
  refine ⟨⟨(i 0).val / 5000, hN⟩, flush0_3 _, ?_⟩
  obtain ⟨-, -, -, -, -, -, e6, e7⟩ := idx_facts ⟨(i 0).val / 5000, hN⟩
  rw [mem_blk]
  intro a
  match a with
  | ⟨0, _⟩ =>
    show win0_3.index ⟨(i 0).val / 5000, hN⟩ (0 : Fin 2) * 5000 ≤ (i 0).val ∧ (i 0).val < win0_3.index ⟨(i 0).val / 5000, hN⟩ (0 : Fin 2) * 5000 + 5000
    rw [e6]; show (i 0).val / 5000 * 5000 ≤ (i 0).val ∧ (i 0).val < (i 0).val / 5000 * 5000 + 5000; omega
  | ⟨1, _⟩ =>
    show win0_3.index ⟨(i 0).val / 5000, hN⟩ (1 : Fin 2) * 128 ≤ (i 1).val ∧ (i 1).val < win0_3.index ⟨(i 0).val / 5000, hN⟩ (1 : Fin 2) * 128 + 128
    rw [e7]; omega

/-- THE OUTPUT ARRAY after the call: `scaled` of the three arrays the call finds. -/
theorem final (c : Dev nD) :
    (dat0 V c).arrAt 3 cfg0.N = scaled (V c main_arg0) (V c main_arg2) (V c main_v16) :=
  (dat0 V c).arrAt_eq_of_cover 3 (scaled (V c main_arg0) (V c main_arg2) (V c main_v16)) (fun t _ => flushed_eq V c t) cover

end Cert.KernelIdeal.Scale

end
-- ==== Proof.KernelFinalize.lean ====
/-
  The second pallas_call (the finalising kernel) as ONE function of the arrays it finds.

  Its grid has 20 points; point `t` stages rows `5000·t … 5000·t + 4999` of the aggregate `a` and of the broadcast
  normaliser `d` (both `[100000, 128]`), the whole bias row `b : [1, 128]`, and writes back the same rows of the
  result. The body is pointwise: `max (a · d + b) 0`, the bias row broadcast down the block. So whatever the entry
  contents, the output array ends at
      out[n, c] = max (a[n, c] · d[n, c] + b[0, c]) 0
  for every `(n, c)`: each point writes its own rows of this function, and the 20 blocks cover the array.
-/
import proofs.«117731_j1125281432194_1_alg».proof.Proof.Gen.KernelIdeal.Frame
import Idealize.ShloMosaic.Lib.Pipeline.Value
import Idealize.ShloMosaic.Lib.ValueIdx

set_option maxRecDepth 16384

noncomputable section

namespace Cert.KernelIdeal.Finalize

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The bias row's entry above column `c`. -/
abbrev biasIx (c : Fin 128) : S1x128.Idx := fun a => match a with
  | ⟨0, _⟩ => ⟨0, Nat.one_pos⟩
  | ⟨1, _⟩ => ⟨c.val, c.isLt⟩

/-- `max (a · d + b) 0`, entry by entry, the bias row read at the entry's column. -/
def relu (a d : S100000x128.Idx → Elt F .f32) (b : S1x128.Idx → Elt F .f32) : S100000x128.Idx → Elt F .f32 :=
  fun i => FloatOps.maximumf (FloatOps.addf (FloatOps.mulf (a i) (d i)) (b (biasIx ⟨(i 1).val, idx2_lt1 i⟩)))
    (Scalar.ofBits .f32 0x00000000#32)

/-- The body's arithmetic at one entry of the block: the two casts to the same shape are the identity, the bias row is
    broadcast down the rows. -/
theorem pay_apply (x0 x1 : Vec F S5000x128 .f32) (x2 : Vec F S1x128 .f32) (j : S5000x128.Idx) :
    k1_pay1 x0 x1 x2 j = FloatOps.maximumf (FloatOps.addf (FloatOps.mulf (x0 j) (x1 j)) (x2 (biasIx ⟨(j 1).val, idx2_lt1 j⟩)))
      (Scalar.ofBits .f32 0x00000000#32) := by
  unfold k1_pay1
  dsimp only
  rw [shapeCast_self, shapeCast_self, shapeCast_self]
  show FloatOps.maximumf (FloatOps.addf (FloatOps.mulf (x0 j) (x1 j)) (broadcastTo S5000x128 x2 broadcasts_S1x128_S5000x128 j)) _ = _
  rw [broadcastTo_apply x2 broadcasts_S1x128_S5000x128 j (biasIx ⟨(j 1).val, idx2_lt1 j⟩) (fun a => by
    match a with
    | ⟨0, _⟩ => rfl
    | ⟨1, _⟩ => rfl)]
  rfl

/-- The payload as a whole block. -/
theorem pay_eq (x0 x1 : Vec F S5000x128 .f32) (x2 : Vec F S1x128 .f32) :
    k1_pay1 x0 x1 x2 = fun j => FloatOps.maximumf (FloatOps.addf (FloatOps.mulf (x0 j) (x1 j)) (x2 (biasIx ⟨(j 1).val, idx2_lt1 j⟩)))
      (Scalar.ofBits .f32 0x00000000#32) :=
  funext fun j => pay_apply x0 x1 x2 j

/-- The printed index maps, decided over the 20 points: the two row-blocked inputs move with the output, the bias row
    stays, and the output's block row is the point's number. -/
theorem idx_facts : ∀ t : Fin cfg1.N, win1_0.index t (0 : Fin 2) = win1_3.index t (0 : Fin 2)
    ∧ win1_0.index t (1 : Fin 2) = win1_3.index t (1 : Fin 2)
    ∧ win1_1.index t (0 : Fin 2) = win1_3.index t (0 : Fin 2)
    ∧ win1_1.index t (1 : Fin 2) = win1_3.index t (1 : Fin 2)
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of `relu` of the arrays the call finds. -/
theorem flushed_eq (c : Dev nD) (t : Fin cfg1.N) :
    (dat1 V c).flushed 3 t = ((cfg1.win 3).blk t).view.read (Elt F) (relu (V c main_v27) (V c main_v16) (V c main_v28)) := by
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz]
  rw [pay_eq]
  obtain ⟨e0, e1, e2, e3, e4, e5, e6, e7⟩ := idx_facts t
  funext j
  have hj0 : (j 0).val < 5000 := (j 0).isLt
  have hj1 : (j 1).val < 128 := (j 1).isLt
  have h0 : ((cfg1.win 0).blk t).view.emb j = ((cfg1.win 3).blk t).view.emb j := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * (j 1).val = win1_3.index t (1 : Fin 2) * 128 + 1 * (j 1).val; omega
  have h1 : ((cfg1.win 1).blk t).view.emb j = ((cfg1.win 3).blk t).view.emb j := by
    funext a; apply Fin.ext
    match a with
    | ⟨0, _⟩ => show win1_1.index t (0 : Fin 2) * 5000 + 1 * (j 0).val = win1_3.index t (0 : Fin 2) * 5000 + 1 * (j 0).val; omega
    | ⟨1, _⟩ => show win1_1.index t (1 : Fin 2) * 128 + 1 * (j 1).val = win1_3.index t (1 : Fin 2) * 128 + 1 * (j 1).val; omega
  have h2 : ((cfg1.win 2).blk t).view.emb (biasIx ⟨(j 1).val, idx2_lt1 j⟩)
      = biasIx ⟨((((cfg1.win 3).blk t).view.emb j) 1).val, idx2_lt1 (((cfg1.win 3).blk t).view.emb j)⟩ := by
    funext a; apply Fin.ext
    match a with
    | ⟨0, _⟩ => show win1_2.index t (0 : Fin 2) * 1 + 1 * 0 = 0; omega
    | ⟨1, _⟩ => show win1_2.index t (1 : Fin 2) * 128 + 1 * (j 1).val = win1_3.index t (1 : Fin 2) * 128 + 1 * (j 1).val; omega
  show FloatOps.maximumf (FloatOps.addf (FloatOps.mulf (V c main_v27 (((cfg1.win 0).blk t).view.emb j)) (V c main_v16 (((cfg1.win 1).blk t).view.emb j)))
      (V c main_v28 (((cfg1.win 2).blk t).view.emb (biasIx ⟨(j 1).val, idx2_lt1 j⟩)))) (Scalar.ofBits .f32 0x00000000#32)
    = relu (V c main_v27) (V c main_v16) (V c main_v28) (((cfg1.win 3).blk t).view.emb j)
  rw [h0, h1, h2]
  rfl

/-- An index of the array is in point `t`'s block iff each coordinate is in the block's range on its axis. -/
theorem mem_blk (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v29).slice (win1_3.rect t)).set ↔ _
  rw [View.set_slice_whole, Rect.mem_set_unit]
  exact Iff.rfl

/-- Row `n` is in the block of point `n / 5000`: the 20 blocks cover the array. -/
theorem cover (i : S100000x128.Idx) : ∃ t : Fin cfg1.N, (cfg1.win 3).flush t = true ∧ i ∈ ((cfg1.win 3).blk t).view.set := by
  have hi0 : (i 0).val < 100000 := idx2_lt0 i
  have hi1 : (i 1).val < 128 := idx2_lt1 i
  have hN : (i 0).val / 5000 < cfg1.N := by
    show (i 0).val / 5000 < grid1.N
    rw [N_1]; omega
  refine ⟨⟨(i 0).val / 5000, hN⟩, flush1_3 _, ?_⟩
  obtain ⟨-, -, -, -, -, -, e6, e7⟩ := idx_facts ⟨(i 0).val / 5000, hN⟩
  rw [mem_blk]
  intro a
  match a with
  | ⟨0, _⟩ =>
    show win1_3.index ⟨(i 0).val / 5000, hN⟩ (0 : Fin 2) * 5000 ≤ (i 0).val ∧ (i 0).val < win1_3.index ⟨(i 0).val / 5000, hN⟩ (0 : Fin 2) * 5000 + 5000
    rw [e6]; show (i 0).val / 5000 * 5000 ≤ (i 0).val ∧ (i 0).val < (i 0).val / 5000 * 5000 + 5000; omega
  | ⟨1, _⟩ =>
    show win1_3.index ⟨(i 0).val / 5000, hN⟩ (1 : Fin 2) * 128 ≤ (i 1).val ∧ (i 1).val < win1_3.index ⟨(i 0).val / 5000, hN⟩ (1 : Fin 2) * 128 + 128
    rw [e7]; omega

/-- THE OUTPUT ARRAY after the call: `relu` of the three arrays the call finds. -/
theorem final (c : Dev nD) :
    (dat1 V c).arrAt 3 cfg1.N = relu (V c main_v27) (V c main_v16) (V c main_v28) :=
  (dat1 V c).arrAt_eq_of_cover 3 (relu (V c main_v27) (V c main_v16) (V c main_v28)) (fun t _ => flushed_eq V c t) cover

end Cert.KernelIdeal.Finalize

end
-- ==== Proof.LibERealSum.lean ====
/-
  Two facts about the extended reals, for a sum of products that shares a factor.

  A finite sum of extended reals times a NONNEGATIVE REAL is the sum of the products: the extended reals are not a
  ring (`⊤ + ⊥ = ⊥` breaks distributivity in general), but a nonnegative finite factor distributes over any sum,
  infinite terms included.

  The guarded inverse square root `if 0 < x then x^(-1/2) else 0` is a nonnegative real at EVERY extended real `x`:
  at `⊤` the inverse square root is `0`, at a positive real it is `(√x)⁻¹`, and everywhere else the guard answers `0`.
-/
import Mathlib.Data.EReal.Operations
import Idealize.ShloMosaic.PureOps.Ideal

namespace Idealize.ShloMosaic.ERealSum

open Idealize.ShloMosaic

/-- A finite sum of extended reals times a nonnegative real is the sum of the products. -/
theorem sum_mul_coe {ι : Type*} (s : Finset ι) (f : ι → EReal) {r : ℝ} (hr : 0 ≤ r) :
    (∑ j ∈ s, f j) * (r : EReal) = ∑ j ∈ s, f j * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- A sum of products `a · p` times a nonnegative real `D` is the sum of `a · (p · D)`: the factor is moved inside and
    regrouped. The terms may be infinite; `D` may not. -/
theorem sum_mul_assoc {ι : Type*} (s : Finset ι) (a p : ι → EReal) {D : EReal} (hD : ∃ r : ℝ, 0 ≤ r ∧ D = (r : EReal)) :
    (∑ j ∈ s, a j * p j) * D = ∑ j ∈ s, a j * (p j * D) := by
  obtain ⟨r, hr, rfl⟩ := hD
  rw [sum_mul_coe s _ hr]
  exact Finset.sum_congr rfl fun j _ => mul_assoc _ _ _

/-- `if 0 < x then rsqrt x else 0` is a nonnegative real whatever the extended real `x`. -/
theorem guarded_rsqrt_real (x : EReal) :
    ∃ r : ℝ, 0 ≤ r ∧ Scalar.select (Ideal.cmp .ogt x 0) (Ideal.rsqrt x) (0 : EReal) = (r : EReal) := by
  by_cases h : (0 : EReal) < x
  · have hc : Ideal.cmp .ogt x 0 = 1#1 := by simp [Ideal.cmp, h]
    rw [hc]
    show ∃ r : ℝ, 0 ≤ r ∧ Ideal.rsqrt x = (r : EReal)
    induction x using EReal.rec with
    | bot => exact absurd h (by simp)
    | top => exact ⟨0, le_rfl, by rw [EReal.coe_zero]; rfl⟩
    | coe y =>
      have hy : 0 < y := by exact_mod_cast h
      refine ⟨(Real.sqrt y)⁻¹, inv_nonneg.mpr (Real.sqrt_nonneg y), ?_⟩
      show (if y < 0 then (⊥ : EReal) else if y = 0 then ⊤ else (((Real.sqrt y)⁻¹ : ℝ) : EReal)) = _
      rw [if_neg (not_lt.mpr hy.le), if_neg hy.ne']
  · have hc : Ideal.cmp .ogt x 0 = 0#1 := by simp [Ideal.cmp, h]
    rw [hc]
    exact ⟨0, le_rfl, by simp [Scalar.select]⟩

/-- The two arrangements of a normalised aggregate. On the left every term `a · p` is summed (onto zero) and the sum
    scaled by `D`; on the right every term carries its own second factor `q`, which on the summed set is `D`. For a
    nonnegative real `D` the two agree, whatever the terms. -/
theorem scaled_sum_eq {ι : Type*} (s : Finset ι) (a p q : ι → EReal) {D : EReal}
    (hD : ∃ r : ℝ, 0 ≤ r ∧ D = (r : EReal)) (hq : ∀ j ∈ s, q j = D) :
    (0 + ∑ j ∈ s, a j * p j) * D = 0 + ∑ j ∈ s, a j * (p j * q j) := by
  rw [zero_add, zero_add, sum_mul_assoc s a p hD]
  exact Finset.sum_congr rfl fun j hj => by rw [hq j hj]

/-- The same for the host's accumulating scatter at one result element `i`: scattering the terms `a · p` onto an array
    that is zero at `i` and scaling what arrives by `D` is scattering the terms `a · (p · q)` onto such an array, when
    every update that lands on `i` has `q = D` and `D` is a nonnegative real. -/
theorem hostScatterAdd_scaled {s si su : Shape} (d : ScatterDims s si su) {w : Nat} (idx : IVec si w)
    (z z' : s.Idx → EReal) (a p q : su.Idx → EReal) (i : s.Idx) {D : EReal}
    (hz : z i = 0) (hz' : z' i = 0) (hD : ∃ r : ℝ, 0 ≤ r ∧ D = (r : EReal))
    (hq : ∀ j, d.resultIdx? j idx = some i → q j = D) :
    Ideal.hostScatterAdd d z idx (fun j => a j * p j) i * D
      = Ideal.hostScatterAdd d z' idx (fun j => a j * (p j * q j)) i := by
  unfold Ideal.hostScatterAdd
  show (z i + ∑ j ∈ _, a j * p j) * D = z' i + ∑ j ∈ _, a j * (p j * q j)
  rw [hz, hz']
  exact scaled_sum_eq _ a p q hD fun j hj => hq j (Finset.mem_filter.mp hj).2

end Idealize.ShloMosaic.ERealSum
-- ==== Proof.KernelValue.lean ====
/-
  The idealized kernel as ONE function of its four arguments, its run, and the result read at one entry.

  Composing the pieces: the first call leaves `xs[n, c] = (Σ_k x[n, k] · w[k, c]) · dinv[n]`; the host gathers the rows
  of `xs` at the edge sources and scatter-adds them at the edge destinations onto zeros; the second call scales what
  arrived at node `n` by `dinv[n]`, adds the bias and clips below at zero. Entry `(n, c)` of the result is
      max ((scatter of the terms (Σ_k x[r_j, k] · w[k, c_j]) · dinv[r_j]) at (n, c) · dinv[n] + b[c]) 0,
  `(r_j, c_j)` the entry of `xs` that the row gather reads for update element `j`. The normaliser is a nonnegative real
  at every node, whatever the degrees are.
-/
import proofs.«117731_j1125281432194_1_alg».proof.Proof.KernelRun
import proofs.«117731_j1125281432194_1_alg».proof.Proof.KernelHost
import proofs.«117731_j1125281432194_1_alg».proof.Proof.KernelScale
import proofs.«117731_j1125281432194_1_alg».proof.Proof.KernelFinalize
import proofs.«117731_j1125281432194_1_alg».proof.Proof.LibERealSum
import Idealize.ShloMosaic.Lib.Pipeline.Value
import Idealize.ShloMosaic.Lib.ValueIdx
import Idealize.ShloMosaic.PureOps.Ideal.Laws

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx

local notation "recS" => scatter_S100000x128_S1700000x1_S1700000x128_1_0_0_1
local notation "recG" => gather_S100000x128_S1700000x1_S1700000x128_1_0_n_n_0_1_1128

/-! ## The whole kernel as one function, and its run -/

/-- The kernel's result as a function of the features, the edge list, the weights and the bias. -/
def result (x : (⟨S100000x128, .f32⟩ : BufTy).Contents (Elt Ideal)) (ei : (⟨S2x1600000, .i32⟩ : BufTy).Contents (Elt Ideal))
    (W : (⟨S128x128, .f32⟩ : BufTy).Contents (Elt Ideal)) (b : (⟨S128, .f32⟩ : BufTy).Contents (Elt Ideal)) :
    (⟨S100000x128, .f32⟩ : BufTy).Contents (Elt Ideal) :=
  Finalize.relu (F := Ideal) (HostV.aggOf (F := Ideal) ei (Scale.scaled x W (HostV.dinvWide (F := Ideal) ei)))
    (HostV.dinvWide (F := Ideal) ei) (HostV.biasRow (F := Ideal) b)

section Run

variable (m : (ℓ : Loc nD τ sig) → Buf (Elt Ideal) ℓ) (ρ : Dev nD → PrngReg)

/-- The first call's output array, of the arguments. -/
theorem scaled_eq (c : Dev nD) :
    (dat0 (V3 m ρ) c).arrAt 3 cfg0.N
      = Scale.scaled (m ((c : Thread nD τ).loc main_arg0)) (m ((c : Thread nD τ).loc main_arg2))
          (HostV.dinvWide (F := Ideal) (m ((c : Thread nD τ).loc main_arg1))) := by
  refine (Scale.final (V3 m ρ) c).trans ?_
  have a0 : V3 m ρ c main_arg0 = m ((c : Thread nD τ).loc main_arg0) := HostV.W3_arg0 m ρ c
  have a2 : V3 m ρ c main_arg2 = m ((c : Thread nD τ).loc main_arg2) := HostV.W3_arg2 m ρ c
  have a16 : V3 m ρ c main_v16 = HostV.dinvWide (F := Ideal) (m ((c : Thread nD τ).loc main_arg1)) := HostV.W3_v16 m ρ c
  rw [a0, a2, a16]

/-- The result buffer at the last segment boundary is `result` of the arguments. -/
theorem out_eq (c : Dev nD) :
    W6 m ρ c (Proc.devRef .tc main_v29)
      = result (m ((c : Thread nD τ).loc main_arg0)) (m ((c : Thread nD τ).loc main_arg1))
          (m ((c : Thread nD τ).loc main_arg2)) (m ((c : Thread nD τ).loc main_arg3)) := by
  refine (W6_arr m ρ c 3).trans ?_
  refine (Finalize.final (F := Ideal) (V5 m ρ) c).trans ?_
  have h27 : V5 m ρ c main_v27
      = HostV.aggOf (F := Ideal) (m ((c : Thread nD τ).loc main_arg1)) ((dat0 (V3 m ρ) c).arrAt 3 cfg0.N) := HostV.W5_v27 m ρ c
  have h16 : V5 m ρ c main_v16 = HostV.dinvWide (F := Ideal) (m ((c : Thread nD τ).loc main_arg1)) := HostV.W5_v16 m ρ c
  have h28 : V5 m ρ c main_v28 = HostV.biasRow (F := Ideal) (m ((c : Thread nD τ).loc main_arg3)) := HostV.W5_v28 m ρ c
  rw [h27, h16, h28, scaled_eq m ρ c]
  rfl

/-- Every weakly fair execution of the idealized kernel terminates, nothing faulting, with the result buffer at
    `result` of the arguments and the arguments as launched. -/
theorem run : θ_run defs (onTc (τ := τ) (main (F := Ideal))) ⟨m, fun _ => 0, ρ⟩ (fun r => ∀ c : Dev nD,
      r.2.mem ((c.tc : Thread nD τ).loc main_v29)
        = result (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (out_eq m ρ c), (h c).2⟩) (Run.run_out (F := Ideal) m ρ)

end Run

/-! ## The result at one entry -/

variable (x : (⟨S100000x128, .f32⟩ : BufTy).Contents (Elt Ideal)) (ei : (⟨S2x1600000, .i32⟩ : BufTy).Contents (Elt Ideal))
  (W : (⟨S128x128, .f32⟩ : BufTy).Contents (Elt Ideal)) (b : (⟨S128, .f32⟩ : BufTy).Contents (Elt Ideal))

/-- The zero array the scatter adds onto. -/
abbrev zeros : (⟨S100000x128, .f32⟩ : BufTy).Contents (Elt Ideal) :=
  broadcastInDim S100000x128 ![] bcast_S_S100000x128 (constant (F := Ideal) S_ .f32 0x00000000#32)

theorem zeros_at (i : S100000x128.Idx) : zeros i = 0 := by
  unfold zeros
  rw [broadcastInDim_apply _ bcast_S_S100000x128 _ i (fun a => a.elim0) (fun a => a.elim0)]
  exact Ideal.ofBits_zero_f32

/-- The entry of the first call's result that the row gather reads for update element `j`. -/
abbrev srcOf (j : S1700000x128.Idx) : S100000x128.Idx := (recG).operandIdx j (HostV.rowColumn (F := Ideal) ei)

/-- The gathered row entry of `x · w` of update element `j`. -/
abbrev rowEntry (j : S1700000x128.Idx) : EReal :=
  ∑ k : Fin 128, x (Scale.lhsIx (srcOf ei j) k) * W (Scale.rhsIx (srcOf ei j) k)

/-- The node of an entry. -/
abbrev nodeOf (i : S100000x128.Idx) : S100000.Idx := fun a => match a with
  | ⟨0, _⟩ => ⟨(i 0).val, (i 0).isLt⟩

/-- The bias entry above an entry's column. -/
abbrev biasSrc (i : S100000x128.Idx) : S128.Idx := fun a => match a with
  | ⟨0, _⟩ => ⟨(i 1).val, (i 1).isLt⟩

/-- The broadcast normaliser at an entry is the normaliser of the entry's node. -/
theorem dinvWide_at (i : S100000x128.Idx) : HostV.dinvWide (F := Ideal) ei i = HostV.dinvOf (F := Ideal) ei (nodeOf i) := by
  unfold HostV.dinvWide
  rw [broadcastInDim_apply _ bcast_S100000x1_S100000x128_0_1 _ i
    (fun a => match a with | ⟨0, _⟩ => ⟨(i 0).val, (i 0).isLt⟩ | ⟨1, _⟩ => ⟨0, Nat.one_pos⟩)
    (fun a => match a with | ⟨0, _⟩ => rfl | ⟨1, _⟩ => rfl)]
  exact broadcastInDim_apply _ bcast_S100000_S100000x1_0 _ _ (nodeOf i) (fun a => match a with | ⟨0, _⟩ => rfl)

/-- The bias row above column `c` is the bias at `c`. -/
theorem bias_at (i : S100000x128.Idx) :
    HostV.biasRow (F := Ideal) b (Finalize.biasIx ⟨(i 1).val, idx2_lt1 i⟩) = b (biasSrc i) := by
  unfold HostV.biasRow
  refine shapeCast_apply b shapeCasts_S128_S1x128 _ (biasSrc i) ?_
  rw [Shape.rowMajor_val_one, Shape.rowMajor_val_two]
  show (i 1).val = 0 * 128 + (i 1).val
  omega

/-- The aggregate of the scaled product is the host's accumulating scatter, at the destination column, of the gathered
    row entries each times the normaliser of its source. -/
theorem agg_eq :
    HostV.aggOf (F := Ideal) ei (Scale.scaled x W (HostV.dinvWide (F := Ideal) ei))
      = Ideal.hostScatterAdd recS zeros (HostV.colColumn (F := Ideal) ei)
          (fun j => rowEntry x ei W j * HostV.dinvWide (F := Ideal) ei (srcOf ei j)) := rfl

/-- THE RESULT at one entry. -/
theorem result_at (i : S100000x128.Idx) :
    result x ei W b i
      = max (Ideal.hostScatterAdd recS zeros (HostV.colColumn (F := Ideal) ei)
              (fun j => rowEntry x ei W j * HostV.dinvOf (F := Ideal) ei (nodeOf (srcOf ei j))) i
            * HostV.dinvOf (F := Ideal) ei (nodeOf i) + b (biasSrc i)) 0 := by
  unfold result Finalize.relu
  show max (HostV.aggOf (F := Ideal) ei (Scale.scaled x W (HostV.dinvWide (F := Ideal) ei)) i * HostV.dinvWide (F := Ideal) ei i
      + HostV.biasRow (F := Ideal) b (Finalize.biasIx ⟨(i 1).val, idx2_lt1 i⟩)) (Ideal.ofBits .f32 0x00000000#32) = _
  rw [agg_eq, Ideal.ofBits_zero_f32, bias_at, dinvWide_at]
  simp only [dinvWide_at]

/-! ## The normaliser is a nonnegative real -/

theorem dinv_real (n : S100000.Idx) : ∃ r : ℝ, 0 ≤ r ∧ HostV.dinvOf (F := Ideal) ei n = (r : EReal) := by
  have h0 : (broadcastInDim S100000 ![] bcast_S_S100000 (constant (F := Ideal) S_ .f32 0x00000000#32)) n = (0 : EReal) := by
    rw [broadcastInDim_apply _ bcast_S_S100000 _ n (fun a => a.elim0) (fun a => a.elim0)]
    exact Ideal.ofBits_zero_f32
  have h0' : (broadcastInDim S100000 ![] bcast_S_S100000 (id (constant (F := Ideal) S_ .f32 0x00000000#32))) n = (0 : EReal) := h0
  have e : HostV.dinvOf (F := Ideal) ei n
      = Scalar.select (Ideal.cmp .ogt (HostV.degOf (F := Ideal) ei n) 0) (Ideal.rsqrt (HostV.degOf (F := Ideal) ei n)) (0 : EReal) := by
    have hrs : ∀ (f : FVec Ideal S100000 .f32) (k : S100000.Idx), Host.rsqrt f k = Ideal.rsqrt (f k) := fun _ _ => rfl
    have hcm : ∀ (u v : Ideal .f32), FloatOps.cmpf .ogt u v = Ideal.cmp .ogt u v := fun _ _ => rfl
    unfold HostV.dinvOf
    rw [select_apply, cmpf_apply, h0, h0', hrs, hcm]
  rw [e]
  exact ERealSum.guarded_rsqrt_real _

end Cert.KernelIdeal.Whole

end
-- ==== Proof.RefValue.lean ====
/-
  The reference's result read at one entry.

  The reference multiplies the features by the weights once (`xw`), and for every edge `e` (self loops included)
  sends the row `xw[row' e]`, scaled by `dinv[row' e] · dinv[col' e]`, to the destination `col e`; the rows that
  land on node `n` are summed onto zero, the bias is added and the result clipped below at zero. Here `row'` and `col'`
  are the edge ends as a gather reads them (a negative number wrapped once by the program, then clamped into range),
  while the scatter reads `col e` signed and drops what falls outside.

  Entry `(n, c)` of the result is therefore
      max ((0 + Σ_{j lands on (n, c)} (Σ_k x[r_j, k] · w[k, c_j]) · (dinv[row' e_j] · dinv[col' e_j])) + b[c]) 0,
  the sum over the update elements `j = (e_j, ·)` whose result index is `(n, c)`, `(r_j, c_j)` the operand entry the
  row gather reads for `j`.
-/
import proofs.«117731_j1125281432194_1_alg».proof.Proof.RefRead
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.ReadP Idealize.ShloMosaic Idealize.ShloMosaic.ValueIdx

local notation "recS" => scatter_S100000x128_S1700000x1_S1700000x128_1_0_0_1
local notation "recG" => gather_S100000x128_S1700000x1_S1700000x128_1_0_n_n_0_1_1128
local notation "recGv" => gather_S100000_S1700000x1_S1700000_n_0_n_n_0_1_1

variable (x : (⟨S100000x128, .f32⟩ : BufTy).Contents (Elt Ideal)) (ei : (⟨S2x1600000, .i32⟩ : BufTy).Contents (Elt Ideal))
  (W : (⟨S128x128, .f32⟩ : BufTy).Contents (Elt Ideal)) (b : (⟨S128, .f32⟩ : BufTy).Contents (Elt Ideal))

/-- The edge an update element belongs to. -/
abbrev edgeOf (j : S1700000x128.Idx) : S1700000.Idx := idx_main_v38 (idx_main_v39 j)

/-- The operand entry the row gather reads for update element `j`. -/
abbrev srcOf (j : S1700000x128.Idx) : S100000x128.Idx := (recG).operandIdx j (val_main_v36 (F := Ideal) ei)

/-- The first gathered normaliser of update element `j`: at the source of its edge. -/
abbrev normSrc (j : S1700000x128.Idx) : EReal :=
  val_main_v15 (F := Ideal) ei ((recGv).operandIdx (edgeOf j) (val_main_v21 (F := Ideal) ei))

/-- The second: at the destination of its edge. -/
abbrev normDst (j : S1700000x128.Idx) : EReal :=
  val_main_v15 (F := Ideal) ei ((recGv).operandIdx (edgeOf j) (val_main_v28 (F := Ideal) ei))

/-- The gathered row entry of `x · w` of update element `j`. -/
abbrev rowEntry (j : S1700000x128.Idx) : EReal :=
  ∑ k : Fin 128, x (lidx_main_v0 (srcOf ei j) k) * W (ridx_main_v0 (srcOf ei j) k)

/-- One update of the scatter: the gathered row entry times the product of the two gathered normalisers. -/
theorem update_at (j : S1700000x128.Idx) :
    val_main_v40 (F := Ideal) x ei W j = rowEntry x ei W j * (normSrc ei j * normDst ei j) := by
  rw [val_main_v40_apply, val_main_v39_apply, val_main_v38_apply, val_main_v30_apply]
  have h37 : val_main_v37 (F := Ideal) x ei W j = val_main_v0 (F := Ideal) x W (srcOf ei j) := rfl
  have h22 : val_main_v22 (F := Ideal) ei (edgeOf j) = normSrc ei j := rfl
  have h29 : val_main_v29 (F := Ideal) ei (edgeOf j) = normDst ei j := rfl
  show val_main_v37 (F := Ideal) x ei W j * (val_main_v22 (F := Ideal) ei (edgeOf j) * val_main_v29 (F := Ideal) ei (edgeOf j)) = _
  rw [h37, h22, h29, val_main_v0_apply]

theorem update_eq : val_main_v40 (F := Ideal) x ei W = fun j => rowEntry x ei W j * (normSrc ei j * normDst ei j) :=
  funext fun j => update_at x ei W j

/-- The zero array the scatter adds onto. -/
theorem zeros_at (i : S100000x128.Idx) : val_main_v41 (F := Ideal) i = 0 := by
  rw [val_main_v41_apply]
  exact Ideal.ofBits_zero_f32

/-- The clip level. -/
theorem clip_at (i : S100000x128.Idx) : val_main_call1_v0 (F := Ideal) i = 0 := by
  rw [val_main_call1_v0_apply]
  exact Ideal.ofBits_zero_f32

/-- The aggregate is the host's accumulating scatter of the updates at the destination column. -/
theorem agg_eq : val_main_v43 (F := Ideal) x ei W
    = Ideal.hostScatterAdd recS (val_main_v41 (F := Ideal)) (val_main_v42 (F := Ideal) ei) (val_main_v40 (F := Ideal) x ei W) := rfl

/-- THE RESULT at one entry. -/
theorem result_at (i : S100000x128.Idx) :
    val_main_v47 (F := Ideal) x ei W b i
      = max (Ideal.hostScatterAdd recS (val_main_v41 (F := Ideal)) (val_main_v42 (F := Ideal) ei)
              (fun j => rowEntry x ei W j * (normSrc ei j * normDst ei j)) i
            + b (idx_main_v44 (idx_main_v45 i))) 0 := by
  rw [val_main_v47_apply, val_main_v46_apply, clip_at, val_main_v45_apply, val_main_v44_apply, agg_eq, update_eq]
  rfl

end Cert.ReferenceIdeal.RefValue

end
-- ==== Proof.LibRowIndex.lean ====
/-
  Indexing the rows of a matrix by a column of row numbers, on the host: which operand row a gathered element reads,
  and where a scattered row lands.

  `x[idx]` of a matrix `x : [N, D]` (or of a vector `x : [N]`) at a column `idx : [E, 1]` of row numbers is a
  `gather` whose start index on the row axis is the row number read SIGNED and CLAMPED into `[0, N − 1]`
  (`rows_operandIdx_row`, `vec_operandIdx`): element `(e, c)` of the result reads row `clamp idx[e]`.
  A row-wise `scatter` of `[E, D]` updates into `[N, D]` at the same kind of column is NOT clamped: update row `e`
  lands on row `n` only if the row number read signed IS `n` (`rowScatter_lands`); any other row number drops it.
-/
import Idealize.ShloMosaic.Lib.ValueIdx

noncomputable section

namespace Idealize.ShloMosaic.RowIndex

open Idealize.ShloMosaic Idealize.ShloMosaic.ValueIdx

/-- Entry `e` of a column `[E, 1]`. -/
abbrev atRow {E : Nat} (e : Fin E) : (⟨2, ![E, 1]⟩ : Shape).Idx := ix2 e (⟨0, Nat.one_pos⟩ : Fin 1)

variable (N D E : Nat)

/-! ## Whole rows of a matrix gathered at a column of row numbers -/

/-- The dimension numbers of `x[idx]` for `x : [N, D]`, `idx : [E, 1]`: the row axis collapsed and indexed, the
    column axis a full-width offset axis. -/
abbrev rowsDims (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Result element `j = (e, c)` reads operand row `clamp idx[e]`. -/
theorem rows_operandIdx_row {w : Nat}
    (wf : GatherDims.WF ⟨2, ![N, D]⟩ ⟨2, ![E, 1]⟩ ⟨2, ![E, D]⟩ [1] [0] [] [0] [] 1 ![1, D])
    (idx : IVec ⟨2, ![E, 1]⟩ w) (j : (⟨2, ![E, D]⟩ : Shape).Idx) :
    ((rowsDims N D E wf).operandIdx j idx 0).val = min (idx (atRow ⟨(j 0).val, idx2_lt0 j⟩)).toInt.toNat (N - 1) := by
  show (rowsDims N D E wf).start j idx 0 + (rowsDims N D E wf).batchCoord j 0 + (rowsDims N D E wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowsDims N D E wf).startIndexMap from List.mem_singleton.mpr rfl)]
  have hsi : (rowsDims N D E wf).siIdx j ⟨List.idxOf (0 : Fin 2) (rowsDims N D E wf).startIndexMap,
      List.idxOf_lt_length_iff.2 (List.mem_singleton.mpr rfl)⟩ = atRow ⟨(j 0).val, idx2_lt0 j⟩ := by
    funext b; refine Fin.ext ?_
    match b with
    | ⟨0, _⟩ => rfl
    | ⟨1, _⟩ => rfl
  rw [hsi]
  rfl

/-! ## Entries of a vector gathered at a column of positions -/

/-- The dimension numbers of `x[idx]` for `x : [N]`, `idx : [E, 1]`. -/
abbrev vecDims (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Result element `e` reads operand entry `clamp idx[e]`. -/
theorem vec_operandIdx {w : Nat} (wf : GatherDims.WF ⟨1, ![N]⟩ ⟨2, ![E, 1]⟩ ⟨1, ![E]⟩ [] [0] [] [0] [] 1 ![1])
    (idx : IVec ⟨2, ![E, 1]⟩ w) (e : (⟨1, ![E]⟩ : Shape).Idx) :
    ((vecDims N E wf).operandIdx e idx 0).val = min (idx (atRow ⟨(e 0).val, (e 0).isLt⟩)).toInt.toNat (N - 1) := by
  show (vecDims N E wf).start e idx 0 + (vecDims N E wf).batchCoord e 0 + (vecDims N E wf).offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx e ⟨List.idxOf (0 : Fin 1) (vecDims N E wf).startIndexMap,
      List.idxOf_lt_length_iff.2 (List.mem_singleton.mpr rfl)⟩ = atRow ⟨(e 0).val, (e 0).isLt⟩ := by
    funext b; refine Fin.ext ?_
    match b with
    | ⟨0, _⟩ => rfl
    | ⟨1, _⟩ => rfl
  rw [hsi]
  rfl

/-! ## Rows scattered at a column of row numbers -/

/-- The dimension numbers of a row-wise scatter of `[E, D]` updates into `[N, D]` at `idx : [E, 1]`. -/
abbrev rowScatter (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- An update element `j = (e, c)` that lands on `i = (n, c')` has row number `idx[e]`, read signed, equal to `n`. -/
theorem rowScatter_lands {w : Nat} (wf : ScatterDims.WF ⟨2, ![N, D]⟩ ⟨2, ![E, 1]⟩ ⟨2, ![E, D]⟩ [1] [0] [0] 1)
    (idx : IVec ⟨2, ![E, 1]⟩ w) (j : (⟨2, ![E, D]⟩ : Shape).Idx) (i : (⟨2, ![N, D]⟩ : Shape).Idx)
    (h : (rowScatter N D E wf).resultIdx? j idx = some i) :
    (idx (atRow ⟨(j 0).val, idx2_lt0 j⟩)).toInt = ((i 0).val : Int) := by
  have hs : (rowScatter N D E wf).start j idx 0 = (idx (atRow ⟨(j 0).val, idx2_lt0 j⟩)).toInt := by
    unfold ScatterDims.start
    rw [dif_pos (show (0 : Fin 2) ∈ (rowScatter N D E wf).scatterDimsToOperandDims from List.mem_singleton.mpr rfl)]
    have hsi : (rowScatter N D E wf).siIdx j ⟨List.idxOf (0 : Fin 2) (rowScatter N D E wf).scatterDimsToOperandDims,
        List.idxOf_lt_length_iff.2 (List.mem_singleton.mpr rfl)⟩ = atRow ⟨(j 0).val, idx2_lt0 j⟩ := by
      funext b; refine Fin.ext ?_
      match b with
      | ⟨0, _⟩ => rfl
      | ⟨1, _⟩ => rfl
    rw [hsi]
  have hw : (rowScatter N D E wf).window j 0 = 0 := by
    have hk : (0 : Fin 2) ∉ (rowScatter N D E wf).sKept := by
      intro hmem
      have h2 : (0 : Fin 2) ∈ (List.finRange 2).filter (· ∉ ([0] : List (Fin 2))) := hmem
      simp at h2
    unfold ScatterDims.window
    rw [dif_neg hk]
  unfold ScatterDims.resultIdx? at h
  split at h
  · rename_i hb
    have h0 : ((rowScatter N D E wf).start j idx 0 + ((rowScatter N D E wf).window j 0 : Int)).toNat = (i 0).val :=
      congrArg (fun f => (f 0).val) (Option.some.inj h)
    have h1 := (hb 0).1
    rw [hs, hw] at h0 h1
    omega
  · exact absurd h (by simp)

/-! ## A row number already in range -/

/-- A row number that reads signed as a natural `n` below `N` is left alone by wrapping (a negative number gets an offset
    added) and by clamping into `[0, N − 1]`: it is not negative, and it is in range. -/
theorem wrap_clamp_of_toInt_eq {N : Nat} (c off : BitVec 32) (n : Nat) (hn : n < N) (hc : c.toInt = (n : Int)) :
    min (Scalar.select (IntOp.cmpi .slt c 0#32) (IntOp.addi c off) c).toInt.toNat (N - 1) = n := by
  have hlt : ¬ (c.toInt < (0#32 : BitVec 32).toInt) := by
    rw [hc]
    simp
  have hcmp : IntOp.cmpi .slt c 0#32 = 0#1 := by
    show BitVec.ofBool (c.slt 0#32) = 0#1
    rw [BitVec.slt, decide_eq_false hlt]
    rfl
  rw [hcmp]
  show min c.toInt.toNat (N - 1) = n
  rw [hc, Int.toNat_natCast]
  omega

end Idealize.ShloMosaic.RowIndex
-- ==== Proof.Bridge.lean ====
/-
  The idealized kernel and the idealized reference compute one function of the four arguments.

  Both build the same edge ends and the same normaliser `dinv` from the edge list, both gather at the same wrapped and
  clamped sources and scatter at the same destinations, and the gathered row entry of `x · w` is the same sum. What
  differs is where the destination's normaliser is applied. The reference scales every update `j` by
  `dinv[row' e_j] · dinv[col' e_j]` before the scatter; the kernel scales it by `dinv[row' e_j]` only and multiplies what
  has arrived at node `n` by `dinv[n]` afterwards. An update that lands on node `n` has its destination, read signed, equal
  to `n`: so it is not negative and in range, wrapping and clamping leave it alone, and `dinv[col' e_j] = dinv[n]`. And
  `dinv[n]` is a nonnegative real, so it distributes over the sum of whatever arrived. Neither step uses that the inputs
  are finite.
-/
import proofs.«117731_j1125281432194_1_alg».proof.Proof.KernelValue
import proofs.«117731_j1125281432194_1_alg».proof.Proof.RefValue
import proofs.«117731_j1125281432194_1_alg».proof.Proof.LibRowIndex
import proofs.«117731_j1125281432194_1_alg».proof.Proof.LibERealSum

set_option maxRecDepth 16384

noncomputable section

namespace Cert.Bridge

open Idealize.ShloMosaic Idealize.ShloMosaic.ValueIdx Idealize.ShloMosaic.RowIndex

local notation "K.recS" => Cert.KernelIdeal.scatter_S100000x128_S1700000x1_S1700000x128_1_0_0_1
local notation "R.recS" => Cert.ReferenceIdeal.scatter_S100000x128_S1700000x1_S1700000x128_1_0_0_1
local notation "R.recGv" => Cert.ReferenceIdeal.gather_S100000_S1700000x1_S1700000_n_0_n_n_0_1_1

variable (x : (⟨Cert.KernelIdeal.S100000x128, .f32⟩ : BufTy).Contents (Elt Ideal))
  (ei : (⟨Cert.KernelIdeal.S2x1600000, .i32⟩ : BufTy).Contents (Elt Ideal))
  (W : (⟨Cert.KernelIdeal.S128x128, .f32⟩ : BufTy).Contents (Elt Ideal))
  (b : (⟨Cert.KernelIdeal.S128, .f32⟩ : BufTy).Contents (Elt Ideal))

/-! ## The shared pieces are the same terms -/

/-- The destination column. -/
theorem col_eq : Cert.ReferenceIdeal.ReadP.val_main_v42 (F := Ideal) ei = Cert.KernelIdeal.HostV.colColumn (F := Ideal) ei := rfl

/-- The wrapped source column, as the row gather reads it … -/
theorem row_eq : Cert.ReferenceIdeal.ReadP.val_main_v36 (F := Ideal) ei = Cert.KernelIdeal.HostV.rowColumn (F := Ideal) ei := rfl

/-- … and as the normaliser's gather reads it. -/
theorem row_eq' : Cert.ReferenceIdeal.ReadP.val_main_v21 (F := Ideal) ei = Cert.KernelIdeal.HostV.rowColumn (F := Ideal) ei := rfl

/-- The normaliser. -/
theorem dinv_eq : Cert.ReferenceIdeal.ReadP.val_main_v15 (F := Ideal) ei = Cert.KernelIdeal.HostV.dinvOf (F := Ideal) ei := rfl

/-- The entry the row gather reads. -/
theorem src_eq (j : Cert.KernelIdeal.S1700000x128.Idx) :
    Cert.ReferenceIdeal.RefValue.srcOf ei j = Cert.KernelIdeal.Whole.srcOf ei j := rfl

/-- The gathered row entry of `x · w`. -/
theorem rowEntry_eq (j : Cert.KernelIdeal.S1700000x128.Idx) :
    Cert.ReferenceIdeal.RefValue.rowEntry x ei W j = Cert.KernelIdeal.Whole.rowEntry x ei W j := by
  show (∑ k : Fin 128, x (Cert.ReferenceIdeal.ReadP.lidx_main_v0 (Cert.ReferenceIdeal.RefValue.srcOf ei j) k)
      * W (Cert.ReferenceIdeal.ReadP.ridx_main_v0 (Cert.ReferenceIdeal.RefValue.srcOf ei j) k))
    = ∑ k : Fin 128, x (Cert.KernelIdeal.Scale.lhsIx (Cert.KernelIdeal.Whole.srcOf ei j) k)
      * W (Cert.KernelIdeal.Scale.rhsIx (Cert.KernelIdeal.Whole.srcOf ei j) k)
  rw [src_eq]
  refine Finset.sum_congr rfl fun k _ => ?_
  have hl : Cert.ReferenceIdeal.ReadP.lidx_main_v0 (Cert.KernelIdeal.Whole.srcOf ei j) k
      = Cert.KernelIdeal.Scale.lhsIx (Cert.KernelIdeal.Whole.srcOf ei j) k :=
    funext fun a => match a with | ⟨0, _⟩ => rfl | ⟨1, _⟩ => rfl
  have hr : Cert.ReferenceIdeal.ReadP.ridx_main_v0 (Cert.KernelIdeal.Whole.srcOf ei j) k
      = Cert.KernelIdeal.Scale.rhsIx (Cert.KernelIdeal.Whole.srcOf ei j) k :=
    funext fun a => match a with | ⟨0, _⟩ => rfl | ⟨1, _⟩ => rfl
  rw [hl, hr]

/-! ## The two gathered normalisers -/

/-- At the source: the normaliser's gather and the row gather read the same wrapped, clamped row number. -/
theorem normSrc_eq (j : Cert.KernelIdeal.S1700000x128.Idx) :
    Cert.ReferenceIdeal.RefValue.normSrc ei j
      = Cert.KernelIdeal.HostV.dinvOf (F := Ideal) ei (Cert.KernelIdeal.Whole.nodeOf (Cert.KernelIdeal.Whole.srcOf ei j)) := by
  show Cert.ReferenceIdeal.ReadP.val_main_v15 (F := Ideal) ei
      ((R.recGv).operandIdx (Cert.ReferenceIdeal.RefValue.edgeOf j) (Cert.ReferenceIdeal.ReadP.val_main_v21 (F := Ideal) ei)) = _
  rw [dinv_eq, row_eq']
  refine congrArg _ (funext fun a => ?_)
  match a with
  | ⟨0, _⟩ =>
    apply Fin.ext
    refine (vec_operandIdx 100000 1700000 _ (Cert.KernelIdeal.HostV.rowColumn (F := Ideal) ei) (Cert.ReferenceIdeal.RefValue.edgeOf j)).trans ?_
    exact (rows_operandIdx_row 100000 128 1700000 _ (Cert.KernelIdeal.HostV.rowColumn (F := Ideal) ei) j).symm

/-- The destination of one edge, wrapped: the reference's select, spelt out. -/
theorem dst_wrap (e : Cert.ReferenceIdeal.S1700000.Idx) :
    Cert.ReferenceIdeal.ReadP.val_main_v27 (F := Ideal) ei e
      = Scalar.select (IntOp.cmpi .slt (Cert.ReferenceIdeal.ReadP.val_main_v7 (F := Ideal) ei e) 0#32)
          (IntOp.addi (Cert.ReferenceIdeal.ReadP.val_main_v7 (F := Ideal) ei e) (Cert.ReferenceIdeal.ReadP.val_main_v25 (F := Ideal) e))
          (Cert.ReferenceIdeal.ReadP.val_main_v7 (F := Ideal) ei e) := by
  rw [Cert.ReferenceIdeal.ReadP.val_main_v27_apply, Cert.ReferenceIdeal.ReadP.val_main_v24_apply,
    Cert.ReferenceIdeal.ReadP.val_main_v26_apply, Cert.ReferenceIdeal.ReadP.val_main_v23_apply,
    Cert.ReferenceIdeal.ReadP.val_main_c_4_apply]

/-- At the destination: an update that lands on entry `i` gathers the normaliser of `i`'s node. -/
theorem normDst_of_lands (i : Cert.KernelIdeal.S100000x128.Idx) (j : Cert.KernelIdeal.S1700000x128.Idx)
    (h : (K.recS).resultIdx? j (Cert.KernelIdeal.HostV.colColumn (F := Ideal) ei) = some i) :
    Cert.ReferenceIdeal.RefValue.normDst ei j = Cert.KernelIdeal.HostV.dinvOf (F := Ideal) ei (Cert.KernelIdeal.Whole.nodeOf i) := by
  have hland := rowScatter_lands 100000 128 1700000 _ (Cert.KernelIdeal.HostV.colColumn (F := Ideal) ei) j i h
  rw [← col_eq, Cert.ReferenceIdeal.ReadP.val_main_v42_apply] at hland
  show Cert.ReferenceIdeal.ReadP.val_main_v15 (F := Ideal) ei
      ((R.recGv).operandIdx (Cert.ReferenceIdeal.RefValue.edgeOf j) (Cert.ReferenceIdeal.ReadP.val_main_v28 (F := Ideal) ei)) = _
  rw [dinv_eq]
  refine congrArg _ (funext fun a => ?_)
  match a with
  | ⟨0, _⟩ =>
    apply Fin.ext
    refine (vec_operandIdx 100000 1700000 _ (Cert.ReferenceIdeal.ReadP.val_main_v28 (F := Ideal) ei) (Cert.ReferenceIdeal.RefValue.edgeOf j)).trans ?_
    rw [Cert.ReferenceIdeal.ReadP.val_main_v28_apply, dst_wrap]
    have he : Cert.ReferenceIdeal.ReadP.idx_main_v28 (atRow ⟨((Cert.ReferenceIdeal.RefValue.edgeOf j) 0).val, ((Cert.ReferenceIdeal.RefValue.edgeOf j) 0).isLt⟩)
        = Cert.ReferenceIdeal.ReadP.idx_main_v42 (atRow ⟨(j 0).val, idx2_lt0 j⟩) :=
      funext fun a => match a with | ⟨0, _⟩ => rfl
    rw [he]
    exact wrap_clamp_of_toInt_eq _ _ (i 0).val (idx2_lt0 i) hland

/-! ## The two results -/

/-- THE BRIDGE: the kernel's function of the arguments is the reference's. -/
theorem result_eq :
    Cert.KernelIdeal.Whole.result x ei W b = Cert.ReferenceIdeal.ReadP.val_main_v47 (F := Ideal) x ei W b := by
  funext i
  rw [Cert.KernelIdeal.Whole.result_at, Cert.ReferenceIdeal.RefValue.result_at]
  have hb : b (Cert.ReferenceIdeal.ReadP.idx_main_v44 (Cert.ReferenceIdeal.ReadP.idx_main_v45 i)) = b (Cert.KernelIdeal.Whole.biasSrc i) :=
    congrArg b (funext fun a => match a with | ⟨0, _⟩ => rfl)
  have hupd : (fun j => Cert.ReferenceIdeal.RefValue.rowEntry x ei W j
        * (Cert.ReferenceIdeal.RefValue.normSrc ei j * Cert.ReferenceIdeal.RefValue.normDst ei j))
      = fun j => Cert.KernelIdeal.Whole.rowEntry x ei W j
        * (Cert.KernelIdeal.HostV.dinvOf (F := Ideal) ei (Cert.KernelIdeal.Whole.nodeOf (Cert.KernelIdeal.Whole.srcOf ei j))
          * Cert.ReferenceIdeal.RefValue.normDst ei j) :=
    funext fun j => by rw [rowEntry_eq, normSrc_eq]
  rw [hupd, hb, col_eq]
  exact congrArg (fun t => max (t + b (Cert.KernelIdeal.Whole.biasSrc i)) 0)
    (ERealSum.hostScatterAdd_scaled K.recS (Cert.KernelIdeal.HostV.colColumn (F := Ideal) ei)
      Cert.KernelIdeal.Whole.zeros (Cert.ReferenceIdeal.ReadP.val_main_v41 (F := Ideal))
      (Cert.KernelIdeal.Whole.rowEntry x ei W)
      (fun j => Cert.KernelIdeal.HostV.dinvOf (F := Ideal) ei (Cert.KernelIdeal.Whole.nodeOf (Cert.KernelIdeal.Whole.srcOf ei j)))
      (Cert.ReferenceIdeal.RefValue.normDst ei) i
      (Cert.KernelIdeal.Whole.zeros_at i) (Cert.ReferenceIdeal.RefValue.zeros_at i)
      (Cert.KernelIdeal.Whole.dinv_real ei _)
      (fun j h => normDst_of_lands ei i j h))

end Cert.Bridge

end
-- ==== Proof.lean ====
/-
  A graph-convolution layer: `out = max (D^(-1/2) (A + I) D^(-1/2) (x · w) + b) 0` over 100000 nodes, 1600000 edges and 128
  features, `A` the adjacency the edge list gives, `I` one self loop per node, `D` the in-degrees.

  The kernel computes it in two passes over row blocks with a gather and a scatter-add between them; the reference
  scales every gathered row by both normalisers before one scatter-add. The claim has five parts.

  The three runs. Each program terminates from every memory, nothing faulting, and leaves its arguments as they were:
  for the two kernel programs this is the frame of the two pipelined calls among the host operations; the reference is
  a straight line of host operations, and its run names the result as the operations' composed term of the arguments.

  The idealization rewrote nothing, so the kernel at the extended reals is the kernel's own text read there.

  The two results are equal entry by entry (Proof/Bridge.lean): an update that lands on node `n` carries `dinv[n]` as its
  destination's normaliser, and `dinv[n]` — zero, or the inverse square root of a positive degree — is a nonnegative
  real, which distributes over the sum of the updates that landed. The inputs' finiteness is not used.
-/
import proofs.«117731_j1125281432194_1_alg».proof.Defs
import proofs.«117731_j1125281432194_1_alg».proof.Proof.Gen.Kernel
import proofs.«117731_j1125281432194_1_alg».proof.Proof.Gen.Kernel.Skeleton
import proofs.«117731_j1125281432194_1_alg».proof.Proof.Gen.Kernel.Launch
import proofs.«117731_j1125281432194_1_alg».proof.Proof.Gen.Kernel.Points
import proofs.«117731_j1125281432194_1_alg».proof.Proof.Gen.Kernel.Frame
import proofs.«117731_j1125281432194_1_alg».proof.Proof.Gen.KernelIdeal
import proofs.«117731_j1125281432194_1_alg».proof.Proof.Gen.KernelIdeal.Skeleton
import proofs.«117731_j1125281432194_1_alg».proof.Proof.Gen.KernelIdeal.Launch
import proofs.«117731_j1125281432194_1_alg».proof.Proof.Gen.KernelIdeal.Points
import proofs.«117731_j1125281432194_1_alg».proof.Proof.Gen.KernelIdeal.Frame
import proofs.«117731_j1125281432194_1_alg».proof.Proof.Gen.ReferenceIdeal
import proofs.«117731_j1125281432194_1_alg».proof.Proof.Gen.Pre_finite_inputs
import proofs.«117731_j1125281432194_1_alg».proof.Proof.RefRun
import proofs.«117731_j1125281432194_1_alg».proof.Proof.RefRead
import proofs.«117731_j1125281432194_1_alg».proof.Proof.KernelValue
import proofs.«117731_j1125281432194_1_alg».proof.Proof.RefValue
import proofs.«117731_j1125281432194_1_alg».proof.Proof.Bridge
import Idealize.ShloMosaic.Adequacy
import Idealize.ShloMosaic.Init

noncomputable section

namespace Cert.Proof

open Idealize.ShloMosaic Idealize.ShloMosaic.TcCoe Idealize.SL.Sem

/-- The kernel at the word level runs and keeps its arguments. -/
theorem frame_kernel : Cert.frame_Kernel := fun m ρ _ => Cert.Kernel.Gen.frame m ρ

/-- So does the kernel at the extended reals. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the four arguments both programs end with the same result array: the kernel's
    function of the arguments, which is the reference's. -/
theorem algebraic : Cert.algebraic_KernelIdeal_ReferenceIdeal := by
  intro m ρ m' ρ' _ hagree
  refine ⟨fun c => Cert.KernelIdeal.Whole.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v47_eq, (hagree c).1, (hagree c).2.1, (hagree c).2.2.1, (hagree c).2.2.2]
  exact (Cert.Bridge.result_eq _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
